-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S512x2048 : Shape := ⟨2, ![512, 2048]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S2048x512 .f32) (main_arg2 : FVec F S512x2048 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S2048x512 : Shape := ⟨2, ![2048, 512]⟩
abbrev S512x2048 : Shape := ⟨2, ![512, 2048]⟩
abbrev S512 : Shape := ⟨1, ![512]⟩
abbrev S1x512 : Shape := ⟨2, ![1, 512]⟩
abbrev S512x512 : Shape := ⟨2, ![512, 512]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512x2048, .f32⟩
  | .hbm, ⟨3, _⟩ => ⟨S512, .f32⟩
  | .hbm, ⟨4, _⟩ => ⟨S1x512, .f32⟩
  | .hbm, ⟨5, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S512x2048, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S512x512_S512 : S512x512.Reduces [1] S512
  shapeCasts_S512_S512x1 : S512.ShapeCasts S512x1
  reduces_S2048x512_S2048 : S2048x512.Reduces [1] S2048
  shapeCasts_S2048_S2048x1 : S2048.ShapeCasts S2048x1
  transposes_S2048x1_p1_0_S1x2048 : S2048x1.Transposes [1, 0] S1x2048
  broadcasts_S512x1_S512x2048 : S512x1.Broadcasts S512x2048
  broadcasts_S1x2048_S512x2048 : S1x2048.Broadcasts S512x2048
  broadcasts_S1x512_S512x512 : S1x512.Broadcasts S512x512
  dot_S512x512_S2048x512_S512x2048_1_1_0_0_n_n_wf : DotDims.WF S512x512 S2048x512 S512x2048 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .f32 = 32 ∨ (Rect.block (s := S512x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x512.size a
  hwx0_4 : ∀ i : grid0.Coords, EltTy.bits .f32 = 32 ∨ (Rect.block (s := S8192x512) S512x512.size (cc0_transform_4 i) (hinb0_4 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S512x2048 : Shape := ⟨2, ![512, 2048]⟩
abbrev S512 : Shape := ⟨1, ![512]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x2048 : Shape := ⟨2, ![8192, 2048]⟩
abbrev S1x2048 : Shape := ⟨2, ![1, 2048]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512x2048, .f32⟩
  | .hbm, ⟨3, _⟩ => ⟨S512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S512x2048, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S2048x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S2048x512_S2048_d1 : S2048x512.ReducesTo [1] S2048
  transposes_S2048x512_S512x2048_1_0 : S2048x512.Transposes [1, 0] S512x2048
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  transposes_S512x2048_S2048x512_1_0 : S512x2048.Transposes [1, 0] S2048x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x2048_S8192x2048_1_0_0_1_n_n_wf : DotDims.WF S8192x512 S512x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.Spec.lean ====
/-
  The function both programs compute, on the extended reals.

  For a batch row `u` and a prototype row `v` (both of 512 features) the squared Euclidean distance is
  taken by the norm expansion `|u|² + |v|² − 2·⟨u, v⟩`; it is clamped below at zero and its square root
  is the distance. An output entry is the affine map of one row's 2048 distances: the sum over the
  prototypes of distance × weight, plus a bias. No step divides or cancels, so the definition makes sense
  for every extended real and the two programs agree on it without any appeal to finiteness.
  The constants `2` and `0` are kept as the single-precision words both programs print.
-/
import Idealize.ShloMosaic.PureOps.Ideal
import Idealize.ShloMosaic.Lib.ValueIdx

noncomputable section

namespace Cert.Spec

open Idealize.ShloMosaic Idealize.ShloMosaic.ValueIdx

/-- The squared distance between two feature rows by the norm expansion: `(Σ u² + Σ v²) − 2 · Σ u·v`. -/
def sqDist (u v : Fin 512 → EReal) : EReal :=
  ((∑ k : Fin 512, u k * u k) + ∑ k : Fin 512, v k * v k)
    - Ideal.ofBits .f32 0x40000000#32 * ∑ k : Fin 512, u k * v k

/-- The distance: the square root of the squared distance clamped below at zero. -/
def dist (u v : Fin 512 → EReal) : EReal :=
  Ideal.sqrt (max (sqDist u v) (Ideal.ofBits .f32 0x00000000#32))

/-- One output entry: the distances of the row `u` to the 2048 prototypes `P`, weighted by `w` and summed,
    plus the bias `β`. -/
def entry (u : Fin 512 → EReal) (P : Fin 2048 → Fin 512 → EReal) (w : Fin 2048 → EReal) (β : EReal) : EReal :=
  (∑ p : Fin 2048, dist u (P p) * w p) + β

/-- The whole result `[8192, 512]`: entry `(r, d)` is `entry` of row `r` of the input, all the prototypes,
    row `d` of the weights and entry `d` of the bias. -/
def result (x : (⟨2, ![8192, 512]⟩ : Shape).Idx → EReal) (P : (⟨2, ![2048, 512]⟩ : Shape).Idx → EReal)
    (W : (⟨2, ![512, 2048]⟩ : Shape).Idx → EReal) (b : (⟨1, ![512]⟩ : Shape).Idx → EReal) :
    (⟨2, ![8192, 512]⟩ : Shape).Idx → EReal :=
  fun i => entry (fun k => x (ix2 (i 0) k)) (fun p k => P (ix2 p k)) (fun p => W (ix2 (i 1) p)) (b (ix1 (i 1)))

end Cert.Spec

end
-- ==== Proof.Products.lean ====
/-
  The kernel body's two matrix products, read at one entry.

  Both contract the LAST axis of both operands: the first pairs a batch row with a prototype row
  (`Σₖ a(r,k) · b(p,k)`, the inner product of the two rows), the second pairs a row of distances with a
  row of the weights (`Σₚ a(r,p) · b(d,p)`). Each starts from a zero accumulator, so at the exact values
  it is just that sum; the contraction index, which the dimension numbers keep as a one-axis index, is
  renamed to its single coordinate.
-/
import proofs.«133414_j9182640079462_1_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## Rows against prototypes: `[512, 512] × [2048, 512] → [512, 2048]` -/

theorem crossL0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem crossL1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem crossR0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem crossR1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry `(r, p)` of the first product is the inner product of row `r` of the left operand with row `p`
    of the right one. -/
theorem cross_apply {φ₁ φ₂ : FTy} (a : FVec Ideal S512x512 φ₁) (b : FVec Ideal S2048x512 φ₂) (r : Fin 512) (p : Fin 2048) :
    matmul dot_S512x512_S2048x512_S512x2048_1_1_0_0_n_n none a b (constant S512x2048 .f32 0x00000000#32) (ix2 r p)
      = ∑ k : Fin 512, a (ix2 r k) * b (ix2 p k) := by
  simp only [matmul]
  rw [Ideal.matmul_constant_zero_apply,
    ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r p)
      ((contrEquiv1 dot_S512x512_S2048x512_S512x2048_1_1_0_0_n_n 512 rfl rfl).symm k) = ix2 r k :=
    funext fun c => Fin.ext (by
      match c with
      | ⟨0, _⟩ => exact crossL0 _ _
      | ⟨1, _⟩ => exact (crossL1 _ _).trans hk)
  have er : dot_S512x512_S2048x512_S512x2048_1_1_0_0_n_n.rhsIdx (ix2 r p)
      ((contrEquiv1 dot_S512x512_S2048x512_S512x2048_1_1_0_0_n_n 512 rfl rfl).symm k) = ix2 p k :=
    funext fun c => Fin.ext (by
      match c with
      | ⟨0, _⟩ => exact crossR0 _ _
      | ⟨1, _⟩ => exact (crossR1 _ _).trans hk)
  rw [el, er]

/-! ## Distances against weights: `[512, 2048] × [512, 2048] → [512, 512]` -/

theorem outL0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem outL1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem outR0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem outR1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry `(r, d)` of the second product is the sum over the prototypes `p` of the left operand at `(r, p)`
    times the right one at `(d, p)`. -/
theorem out_apply {φ₁ φ₂ : FTy} (a : FVec Ideal S512x2048 φ₁) (b : FVec Ideal S512x2048 φ₂) (r d : Fin 512) :
    matmul dot_S512x2048_S512x2048_S512x512_1_1_0_0_n_n none a b (constant S512x512 .f32 0x00000000#32) (ix2 r d)
      = ∑ p : Fin 2048, a (ix2 r p) * b (ix2 d p) := by
  simp only [matmul]
  rw [Ideal.matmul_constant_zero_apply,
    ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 r d)
      ((contrEquiv1 dot_S512x2048_S512x2048_S512x512_1_1_0_0_n_n 2048 rfl rfl).symm k) = ix2 r k :=
    funext fun c => Fin.ext (by
      match c with
      | ⟨0, _⟩ => exact outL0 _ _
      | ⟨1, _⟩ => exact (outL1 _ _).trans hk)
  have er : dot_S512x2048_S512x2048_S512x512_1_1_0_0_n_n.rhsIdx (ix2 r d)
      ((contrEquiv1 dot_S512x2048_S512x2048_S512x512_1_1_0_0_n_n 2048 rfl rfl).symm k) = ix2 d k :=
    funext fun c => Fin.ext (by
      match c with
      | ⟨0, _⟩ => exact outR0 _ _
      | ⟨1, _⟩ => exact (outR1 _ _).trans hk)
  rw [el, er]

end Cert.KernelIdeal.Products

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.KernelBlock.lean ====
/-
  What the kernel body computes for one block of 512 batch rows, entry by entry.

  The body holds a block `x0` of 512 input rows, all the prototypes `x1`, all the weights `x2` and the bias
  as one row `x3`. Entry `(r, d)` of what it stores is `Spec.entry` of row `r` of the block, the prototypes,
  row `d` of the weights and entry `d` of the bias: the row norms are lane sums kept as columns (the
  prototypes' column is then turned into a row), both are repeated over the `[512, 2048]` tile, and the two
  products contract the last axes (`Products`). The narrowing of the product operands to sixteen bits is the
  identity at the exact values.
-/
import proofs.«133414_j9182640079462_1_alg».proof.Proof.Gen.KernelIdeal.Skeleton
import proofs.«133414_j9182640079462_1_alg».proof.Proof.Spec
import proofs.«133414_j9182640079462_1_alg».proof.Proof.Products
import proofs.«133414_j9182640079462_1_alg».proof.Proof.LibLayout
import proofs.«133414_j9182640079462_1_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The vector square root at an index is the exact square root of the entry. -/
theorem sqrt_apply {s : Shape} {φ : FTy} (a : FVec Ideal s φ) (i : s.Idx) : sqrt a i = Ideal.sqrt (a i) := rfl

/-- A lane sum of a single-precision `[m, n]` block starting from the zero word, at row `p`: `Σₛ x (p, s)`
    (that the starting word is the neutral element of addition is here the plain equation `0 = 0` of words). -/
theorem rowSum_apply {m n : ℕ} (x : FVec Ideal ⟨2, ![m, n]⟩ .f32)
    (h : (⟨2, ![m, n]⟩ : Shape).Reduces [(1 : Fin 2)] ⟨1, ![m]⟩) (hφ : FKind.Formats .f32)
    (hacc : (0x00000000#32 : BitVec 32) = 0x00000000#32) (p : Fin m) :
    multiReduction .add [(1 : Fin 2)] ⟨1, ![m]⟩ x 0x00000000#32 h hφ hacc (ix1 p) = ∑ s : Fin n, x (ix2 p s) :=
  LibRows.rowSum_apply x 0x00000000#32 h hφ hacc p

/-- Entry `(r, d)` of the body's stored value. -/
theorem pay_apply (x0 : Vec Ideal S512x512 .f32) (x1 : Vec Ideal S2048x512 .f32) (x2 : Vec Ideal S512x2048 .f32)
    (x3 : Vec Ideal S1x512 .f32) (r d : Fin 512) :
    k0_pay1 (F := Ideal) x0 x1 x2 x3 (ix2 r d)
      = Spec.entry (fun k => x0 (ix2 r k)) (fun p k => x1 (ix2 p k)) (fun p => x2 (ix2 d p)) (x3 (ix2 (0 : Fin 1) d)) := by
  unfold k0_pay1
  dsimp only
  rw [addf_apply, Products.out_apply, ValueIdx.broadcastTo_1b_ab_apply, shapeCast_self]
  unfold Spec.entry
  refine congrArg (· + _) (Finset.sum_congr rfl fun p _ => ?_)
  rw [truncf_apply, truncf_apply, sqrt_apply, maximumf_apply, subf_apply, addf_apply, mulf_apply, broadcast_apply,
    broadcast_apply, Products.cross_apply, LibLayout.broadcastTo_a1_ab_apply, LibLayout.shapeCast_a_a1_apply,
    rowSum_apply, ValueIdx.broadcastTo_1b_ab_apply, ValueIdx.transpose_ix2_apply,
    LibLayout.shapeCast_a_a1_apply, rowSum_apply]
  rfl

/-- The same entry as an entry of `Spec.result`: when row `j 0` of the block is row `i 0` of the input, the
    prototype and weight blocks are the whole arrays and the bias row is the bias vector, entry `j` of the
    stored value is entry `i` of the result with the same column. -/
theorem pay_eq_result (x0 : Vec Ideal S512x512 .f32) (x1 : Vec Ideal S2048x512 .f32) (x2 : Vec Ideal S512x2048 .f32)
    (x3 : Vec Ideal S1x512 .f32) (X : S8192x512.Idx → EReal) (Pr : S2048x512.Idx → EReal) (W : S512x2048.Idx → EReal)
    (b : S512.Idx → EReal) (j : S512x512.Idx) (i : S8192x512.Idx)
    (h0 : ∀ k : Fin 512, x0 (ix2 (j 0) k) = X (ix2 (i 0) k))
    (h1 : ∀ (p : Fin 2048) (k : Fin 512), x1 (ix2 p k) = Pr (ix2 p k))
    (h2 : ∀ p : Fin 2048, x2 (ix2 (j 1) p) = W (ix2 (i 1) p))
    (h3 : x3 (ix2 (0 : Fin 1) (j 1)) = b (ix1 (i 1))) :
    k0_pay1 (F := Ideal) x0 x1 x2 x3 j = Spec.result X Pr W b i := by
  refine ((congrArg (k0_pay1 (F := Ideal) x0 x1 x2 x3) (eq_ix2 j)).trans (pay_apply x0 x1 x2 x3 (j 0) (j 1))).trans ?_
  unfold Spec.result
  simp only [h0, h1, h2, h3]

end Cert.KernelIdeal.Block

end
-- ==== Proof.WholeArray.lean ====
/-
  From the blocks to the whole result array of the kernel.

  The grid has 16 points; point `t` holds rows `512·t … 512·t + 511` of the input and writes the same rows
  of the result, while the prototypes, the weights and the bias row are the same whole arrays at every point
  (the bias row is the bias vector reshaped to `[1, 512]` before the launch). So what point `t` writes back is
  block `t` of `Spec.result` of the argument arrays, the 16 blocks cover the `[8192, 512]` array (row `r` lies
  in block `r / 512`), and the array ends holding `Spec.result`.
-/
import proofs.«133414_j9182640079462_1_alg».proof.Proof.Gen.KernelIdeal.Value
import proofs.«133414_j9182640079462_1_alg».proof.Proof.KernelBlock
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the argument arrays as launched. -/
abbrev res (c : Dev nD) : S8192x512.Idx → EReal :=
  Spec.result (m ((c : Thread nD τ).loc main_arg0)) (m ((c : Thread nD τ).loc main_arg1))
    (m ((c : Thread nD τ).loc main_arg2)) (m ((c : Thread nD τ).loc main_arg3))

/-- The block indices over the grid: the input's and the result's row block is the point itself, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The bias row the region finds is the bias vector reshaped to one row. -/
theorem bias_row (c : Dev nD) :
    (V m c main_v0 : S1x512.Idx → EReal)
      = shapeCast S1x512 (m ((c : Thread nD τ).loc main_arg3) : S512.Idx → EReal) shapeCasts_S512_S1x512 := by
  dsimp only [Gen.V, Gen.hostOps0]; after_results; rfl

/-- What point `t` writes back is block `t` of the result function. -/
theorem flushed_eq (c : Dev nD) (t : Fin cfg0.N) :
    (dats m 0 c).flushed 4 t = ((cfg0.win 4).blk t).view.read (Elt Ideal) (res m c) := by
  rw [Value.flushed4]
  unfold out0_4
  rw [View.canon_unit_zero hz]
  simp only [View.ld_unit_zero (S := S512x512) hz, View.ld_unit_zero (S := S2048x512) hz,
    View.ld_unit_zero (S := S512x2048) hz, View.ld_unit_zero (S := S1x512) hz]
  obtain ⟨a0, a1, b0, b1, c0, c1, d0, d1, e0, e1⟩ := idx_facts t
  funext j
  show k0_pay1 (F := Ideal) (iblk m c 0 t) (iblk m c 1 t) (iblk m c 2 t) (iblk m c 3 t) j
    = res m c (((cfg0.win 4).blk t).view.emb j)
  refine Block.pay_eq_result (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) j (((cfg0.win 4).blk t).view.emb j) (fun k => ?_) (fun p k => ?_) (fun p => ?_) ?_
  · show V m c main_arg0 (((cfg0.win 0).blk t).view.emb (ix2 (j 0) k)) = _
    rw [V_main_arg0]
    refine congrArg _ (funext fun a => Fin.ext ?_)
    match a with
    | ⟨0, _⟩ =>
      show win0_0.index t (0 : Fin 2) * 512 + 1 * (j 0).val = win0_4.index t (0 : Fin 2) * 512 + 1 * (j 0).val
      omega
    | ⟨1, _⟩ =>
      show win0_0.index t (1 : Fin 2) * 512 + 1 * k.val = k.val
      omega
  · show V m c main_arg1 (((cfg0.win 1).blk t).view.emb (ix2 p k)) = _
    rw [V_main_arg1]
    refine congrArg _ (funext fun a => Fin.ext ?_)
    match a with
    | ⟨0, _⟩ =>
      show win0_1.index t (0 : Fin 2) * 2048 + 1 * p.val = p.val
      omega
    | ⟨1, _⟩ =>
      show win0_1.index t (1 : Fin 2) * 512 + 1 * k.val = k.val
      omega
  · show V m c main_arg2 (((cfg0.win 2).blk t).view.emb (ix2 (j 1) p)) = _
    rw [V_main_arg2]
    refine congrArg _ (funext fun a => Fin.ext ?_)
    match a with
    | ⟨0, _⟩ =>
      show win0_2.index t (0 : Fin 2) * 512 + 1 * (j 1).val = win0_4.index t (1 : Fin 2) * 512 + 1 * (j 1).val
      omega
    | ⟨1, _⟩ =>
      show win0_2.index t (1 : Fin 2) * 2048 + 1 * p.val = p.val
      omega
  · show V m c main_v0 (((cfg0.win 3).blk t).view.emb (ix2 (0 : Fin 1) (j 1))) = _
    rw [bias_row]
    have hq : ((cfg0.win 3).blk t).view.emb (ix2 (0 : Fin 1) (j 1)) = ix2 (0 : Fin 1) ((((cfg0.win 4).blk t).view.emb j) 1) :=
      funext fun a => Fin.ext (by
        match a with
        | ⟨0, _⟩ =>
          show win0_3.index t (0 : Fin 2) * 1 + 1 * 0 = 0
          omega
        | ⟨1, _⟩ =>
          show win0_3.index t (1 : Fin 2) * 512 + 1 * (j 1).val = win0_4.index t (1 : Fin 2) * 512 + 1 * (j 1).val
          omega)
    rw [hq]
    exact ValueIdx.shapeCast_a_1a_apply _ shapeCasts_S512_S1x512 (0 : Fin 1) _

/-- An index of the array is in point `t`'s block iff each coordinate is in the block's range on its axis. -/
theorem mem_blk (t : Fin cfg0.N) (i : S8192x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v1).slice (win0_4.rect t)).set ↔ _
  rw [View.set_slice_whole, Rect.mem_set_unit]
  exact Iff.rfl

/-- Every index of the array lies in the block of the point `row / 512`. -/
theorem covered (i : S8192x512.Idx) :
    ∃ t : Fin cfg0.N, (cfg0.win 4).flush t = true ∧ i ∈ ((cfg0.win 4).blk t).view.set := by
  have hi0 : (i 0).val < 8192 := (i 0).isLt
  have hi1 : (i 1).val < 512 := (i 1).isLt
  have hN : cfg0.N = 16 := N_0
  let t : Fin cfg0.N := ⟨(i 0).val / 512, by rw [hN]; omega⟩
  obtain ⟨a0, a1, b0, b1, c0, c1, d0, d1, e0, e1⟩ := idx_facts t
  have ht : t.val = (i 0).val / 512 := rfl
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 512 ≤ (i 1).val ∧ (i 1).val < win0_4.index t (1 : Fin 2) * 512 + 512
    omega

/-- The result array after the run is the result function of the argument arrays. -/
theorem final (c : Dev nD) : (dats m 0 c).arrAt 4 cfg0.N = res m c :=
  (dats m 0 c).arrAt_eq_of_cover 4 (res m c) (fun t _ => flushed_eq m c t) covered

/-- The run, read: the result array at the result function, the arguments unchanged. -/
theorem run : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefResult.lean ====
/-
  The reference program computes `Spec.result`.

  Read one operation at a time, its result at `(r, d)` is the sum over the prototypes `p` of
  `√(max((|xᵣ|² + |Pₚ|²) − 2·⟨xᵣ, Pₚ⟩, 0))` times the transposed weight at `(p, d)`, plus the bias at `d`;
  the two row sums start from a zero initial value, which adds nothing. The index functions that the
  transposes, the broadcasts and the two contractions compose are the coordinate pairs the specification
  names.
-/
import proofs.«133414_j9182640079462_1_alg».proof.Proof.Gen.ReferenceIdeal.Read
import proofs.«133414_j9182640079462_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's distance array at `(r, p)` is the distance between row `r` of the input and prototype `p`. -/
theorem ref_dist (x0 : (⟨S8192x512, .f32⟩ : BufTy).Contents (Elt Ideal)) (x1 : (⟨S2048x512, .f32⟩ : BufTy).Contents (Elt Ideal))
    (r : Fin 8192) (p : Fin 2048) :
    val_main_v16 (F := Ideal) x0 x1 (ix2 r p) = Spec.dist (fun k => x0 (ix2 r k)) (fun k => x1 (ix2 p k)) := by
  have e1 : ∀ k : Fin 512, idx_main_v1 (idx_main_v2 (idx_main_v8 (ix2 r p))) k = ix2 r k := fun k =>
    funext fun a => Fin.ext (by match a with | ⟨0, _⟩ => rfl | ⟨1, _⟩ => rfl)
  have e4 : ∀ k : Fin 512, idx_main_v4 (idx_main_v7 (idx_main_v9 (ix2 r p))) k = ix2 p k := fun k =>
    funext fun a => Fin.ext (by match a with | ⟨0, _⟩ => rfl | ⟨1, _⟩ => rfl)
  have el : ∀ k : Fin 512, lidx_main_v6 (ix2 r p) k = ix2 r k := fun k =>
    funext fun a => Fin.ext (by match a with | ⟨0, _⟩ => rfl | ⟨1, _⟩ => rfl)
  have er : ∀ k : Fin 512, idx_main_v5 (ridx_main_v6 (ix2 r p) k) = ix2 p k := fun k =>
    funext fun a => Fin.ext (by match a with | ⟨0, _⟩ => rfl | ⟨1, _⟩ => rfl)
  rw [val_main_v16_apply, val_main_v15_apply, val_main_v13_apply, val_main_v14_apply, val_main_cst_2_apply,
    val_main_v10_apply, val_main_v8_apply, val_main_v2_apply, val_main_v1_apply, val_main_v9_apply, val_main_v7_apply,
    val_main_v4_apply, val_main_v12_apply, val_main_v11_apply, val_main_cst_1_apply, val_main_v6_apply,
    val_main_cst_apply, val_main_cst_0_apply]
  simp only [val_main_v0_apply, val_main_v3_apply, val_main_v5_apply, e1, e4, el, er, Ideal.hostUnary_sqrt_def,
    Ideal.maximumf_def, Ideal.subf_def, Ideal.addf_def, Ideal.mulf_def, Ideal.ofBits_def, Ideal.ofBits_zero_f32, zero_add,
    Spec.dist, Spec.sqDist]

/-- The reference's result is the specification's, entry by entry. -/
theorem ref_result (x0 : (⟨S8192x512, .f32⟩ : BufTy).Contents (Elt Ideal)) (x1 : (⟨S2048x512, .f32⟩ : BufTy).Contents (Elt Ideal))
    (x2 : (⟨S512x2048, .f32⟩ : BufTy).Contents (Elt Ideal)) (x3 : (⟨S512, .f32⟩ : BufTy).Contents (Elt Ideal)) :
    val_main_v21 (F := Ideal) x0 x1 x2 x3 = Spec.result x0 x1 x2 x3 := by
  funext i
  obtain ⟨r, d, rfl⟩ : ∃ (r : Fin 8192) (d : Fin 512), i = ix2 r d := ⟨i 0, i 1, eq_ix2 i⟩
  have el : ∀ p : Fin 2048, lidx_main_v18 (ix2 r d) p = ix2 r p := fun p =>
    funext fun a => Fin.ext (by match a with | ⟨0, _⟩ => rfl | ⟨1, _⟩ => rfl)
  have er : ∀ p : Fin 2048, idx_main_v17 (ridx_main_v18 (ix2 r d) p) = ix2 d p := fun p =>
    funext fun a => Fin.ext (by match a with | ⟨0, _⟩ => rfl | ⟨1, _⟩ => rfl)
  have eb : idx_main_v19 (idx_main_v20 (ix2 r d)) = ix1 d :=
    funext fun a => Fin.ext (by match a with | ⟨0, _⟩ => rfl)
  rw [val_main_v21_apply, val_main_v18_apply, val_main_v20_apply, val_main_v19_apply]
  simp only [val_main_v17_apply, el, er, eb, ref_dist, Ideal.addf_def, Spec.result, Spec.entry]

end Cert.ReferenceIdeal.RefValue

end
-- ==== Proof.lean ====
/-
  The prototype-distance classifier: `out = dist(input, prototypes) · Wᵀ + b`, where
  `dist(r, p) = √(max(|xᵣ|² + |Pₚ|² − 2·⟨xᵣ, Pₚ⟩, 0))` is the Euclidean distance between batch row `r` and
  prototype `p` taken by the norm expansion.

  The kernel works on 16 blocks of 512 batch rows with the prototypes, the weights and the bias resident; the
  reference does the same arithmetic on the whole arrays. On the extended reals both are `Spec.result` of the
  argument arrays: the kernel block by block (`KernelBlock`, `WholeArray`), the reference operation by
  operation (`RefResult`). The two sides apply the same operations in the same order to the same sums, a
  product contracted over the last axes of both operands on one side being the product with the transposed
  operand on the other, so no law that needs finiteness is used and the precondition is never opened. The
  three frames are the generated ones (the reference's is its generated run with the result dropped); the
  idealization rewrote nothing, so it is preserved trivially.
-/
import proofs.«133414_j9182640079462_1_alg».proof.Defs
import proofs.«133414_j9182640079462_1_alg».proof.Proof.Gen.Kernel
import proofs.«133414_j9182640079462_1_alg».proof.Proof.Gen.Kernel.Skeleton
import proofs.«133414_j9182640079462_1_alg».proof.Proof.Gen.Kernel.Launch
import proofs.«133414_j9182640079462_1_alg».proof.Proof.Gen.Kernel.Points
import proofs.«133414_j9182640079462_1_alg».proof.Proof.Gen.Kernel.Frame
import proofs.«133414_j9182640079462_1_alg».proof.Proof.Gen.KernelIdeal
import proofs.«133414_j9182640079462_1_alg».proof.Proof.Gen.KernelIdeal.Skeleton
import proofs.«133414_j9182640079462_1_alg».proof.Proof.Gen.KernelIdeal.Launch
import proofs.«133414_j9182640079462_1_alg».proof.Proof.Gen.KernelIdeal.Points
import proofs.«133414_j9182640079462_1_alg».proof.Proof.Gen.KernelIdeal.Frame
import proofs.«133414_j9182640079462_1_alg».proof.Proof.Gen.ReferenceIdeal
import proofs.«133414_j9182640079462_1_alg».proof.Proof.Gen.Pre_finite_inputs
import proofs.«133414_j9182640079462_1_alg».proof.Proof.Gen.KernelIdeal.Value
import proofs.«133414_j9182640079462_1_alg».proof.Proof.Gen.ReferenceIdeal.Run
import proofs.«133414_j9182640079462_1_alg».proof.Proof.Gen.ReferenceIdeal.Read
import proofs.«133414_j9182640079462_1_alg».proof.Proof.WholeArray
import proofs.«133414_j9182640079462_1_alg».proof.Proof.RefResult
import Idealize.ShloMosaic.Adequacy
import Idealize.ShloMosaic.Init

noncomputable section

namespace Cert.Proof

open Idealize.ShloMosaic Idealize.SL.Sem

/-- At the exact values the kernel's result array ends at `Spec.result` of its arguments and so does the
    reference's, whose arguments agree with the kernel's. -/
theorem algebraic : Cert.algebraic_KernelIdeal_ReferenceIdeal := by
  intro m ρ m' ρ' _ hagree
  refine ⟨fun c => Cert.KernelIdeal.Whole.res m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _).trans ?_
  rw [Cert.ReferenceIdeal.RefValue.ref_result, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
